-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S4096x4096 .f32) (main_arg1 : FVec F S11008x4096 .f32) (main_arg2 : FVec F S11008x1 .f32) (main_arg3 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x1 .f32 := Host.absf main_arg2
  let main_cst_2 : FVec F S_ .f32 := constant S_ .f32 0x7F800000#32
  let main_v10 : FVec F S11008x1 .f32 := broadcastInDim S11008x1 ![] bcast_S_S11008x1 main_cst_2
  let main_v11 : IVec S11008x1 1 := cmpf .olt main_v9 main_v10
  let main_c_3 : IVec S_ 1 := constantI S_ 1 1#1
  let main_v12 : IVec S_ 1 := (fun x v => Host.reduce IntOp.andi x v reducesTo_S11008x1_S_d0_1 h_S_) main_v11 main_c_3
  let main_v13 : IVec S_ 1 := andi main_v8 main_v12
  let main_v14 : FVec F S11008 .f32 := Host.absf main_arg3
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S4096x4096 : Shape := ⟨2, ![4096, 4096]⟩
abbrev S11008x4096 : Shape := ⟨2, ![11008, 4096]⟩
abbrev S11008x1 : Shape := ⟨2, ![11008, 1]⟩
abbrev S11008 : Shape := ⟨1, ![11008]⟩
abbrev S1x11008 : Shape := ⟨2, ![1, 11008]⟩
abbrev S4096x11008 : Shape := ⟨2, ![4096, 11008]⟩
abbrev S2048x4096 : Shape := ⟨2, ![2048, 4096]⟩
abbrev S256x4096 : Shape := ⟨2, ![256, 4096]⟩
abbrev S1x256 : Shape := ⟨2, ![1, 256]⟩
abbrev S2048x256 : Shape := ⟨2, ![2048, 256]⟩

abbrev nBuf : Space → Nat
  | .hbm => 9
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S4096x4096, .bf16⟩
  | .hbm, ⟨5, _⟩ => ⟨S11008x4096, .bf16⟩
  | .hbm, ⟨6, _⟩ => ⟨S1x11008, .f32⟩
  | .hbm, ⟨7, _⟩ => ⟨S1x11008, .f32⟩
  | .hbm, ⟨8, _⟩ => ⟨S4096x11008, .f32⟩
  | .local _ .vmem, ⟨0, _⟩ => ⟨S2048x4096, .bf16⟩
  | .local _ .vmem, ⟨1, _⟩ => ⟨S256x4096, .bf16⟩
  | .local _ .vmem, ⟨2, _⟩ => ⟨S256x4096, .bf16⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S2048x256, .f32⟩
  | .local _ .vmem, ⟨8, _⟩ => ⟨S2048x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  shapeCasts_S11008x1_S1x11008 : S11008x1.ShapeCasts S1x11008
  shapeCasts_S11008_S1x11008 : S11008.ShapeCasts S1x11008
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x4096.size a ≤ S4096x4096.size a
  hwx0_0 : ∀ i : grid0.Coords, EltTy.bits .bf16 = 32 ∨ (Rect.block (s := S4096x4096) S2048x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S4096x11008.size a
  hwx0_4 : ∀ i : grid0.Coords, EltTy.bits .f32 = 32 ∨ (Rect.block (s := S4096x11008) S2048x256.size (cc0_transform_4 i) (hinb0_4 i)).WholeWords (EltTy.packing .f32)

variable [Facts₀]

def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v0) S2048x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S11008x4096 : Shape := ⟨2, ![11008, 4096]⟩
abbrev S11008x1 : Shape := ⟨2, ![11008, 1]⟩
abbrev S11008 : Shape := ⟨1, ![11008]⟩
abbrev S4096x11008 : Shape := ⟨2, ![4096, 11008]⟩
abbrev S1x11008 : Shape := ⟨2, ![1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .f32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S4096x11008, .f32⟩
  | .hbm, ⟨7, _⟩ => ⟨S4096x11008, .f32⟩
  | .hbm, ⟨8, _⟩ => ⟨S1x11008, .f32⟩
  | .hbm, ⟨9, _⟩ => ⟨S4096x11008, .f32⟩
  | .hbm, ⟨10, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  transposes_S11008x4096_S4096x11008_1_0 : S11008x4096.Transposes [1, 0] S4096x11008
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S4096x11008_S4096x11008_1_0_0_1_n_n_wf : DotDims.WF S4096x4096 S4096x11008 S4096x11008 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf

class Facts : Prop extends Facts₀ where

variable [Facts]
-- ==== Proof.ScaledLinear.lean ====
/-
  The quantised linear layer as ONE function of its four argument arrays, and the law that joins the two ways of
  computing it.

  With x : [4096, 4096], w : [11008, 4096] (the integer-valued weights), s : [11008, 1] (one scale per output channel)
  and b : [11008], the layer's output at row r and channel c is

      out[r, c] = (∑ k, x[r, k] · w[c, k]) · s[c, 0] + b[c].

  That is the order in which a tile of the output is computed when the scale is applied AFTER the contraction. Scaling
  the weights first gives ∑ k, x[r, k] · (w[c, k] · s[c, 0]) + b[c]. The two agree because a factor moves across a finite
  sum of REAL numbers; on the extended reals it does not in general (a row holding +∞ and -∞ with a negative scale gives
  ⊤ one way and ⊥ the other), so the law is stated for entries that are real.
-/
import Idealize.ShloMosaic.PureOps.Ideal
import Idealize.ShloMosaic.Lib.ValueIdx

noncomputable section

namespace Cert.ScaledLinear

open Idealize.ShloMosaic Idealize.ShloMosaic.ValueIdx

/-- The layer's output at row `r` and channel `c`: the contraction of row `r` of `x` with row `c` of `w`, times
    channel `c`'s scale, plus channel `c`'s bias. -/
def outAt (x : (⟨2, ![4096, 4096]⟩ : Shape).Idx → EReal) (w : (⟨2, ![11008, 4096]⟩ : Shape).Idx → EReal)
    (s : (⟨2, ![11008, 1]⟩ : Shape).Idx → EReal) (b : (⟨1, ![11008]⟩ : Shape).Idx → EReal)
    (r : Fin 4096) (c : Fin 11008) : EReal :=
  (∑ k : Fin 4096, x (ix2 r k) * w (ix2 c k)) * s (ix2 c (0 : Fin 1)) + b (ix1 c)

/-- The layer's output array, index by index. -/
def out (x : (⟨2, ![4096, 4096]⟩ : Shape).Idx → EReal) (w : (⟨2, ![11008, 4096]⟩ : Shape).Idx → EReal)
    (s : (⟨2, ![11008, 1]⟩ : Shape).Idx → EReal) (b : (⟨1, ![11008]⟩ : Shape).Idx → EReal) :
    (⟨2, ![4096, 11008]⟩ : Shape).Idx → EReal :=
  fun i => outAt x w s b (i 0) (i 1)

/-- At the index with coordinates `r`, `c` the array holds `outAt … r c`. -/
theorem out_ix2 (x : (⟨2, ![4096, 4096]⟩ : Shape).Idx → EReal) (w : (⟨2, ![11008, 4096]⟩ : Shape).Idx → EReal)
    (s : (⟨2, ![11008, 1]⟩ : Shape).Idx → EReal) (b : (⟨1, ![11008]⟩ : Shape).Idx → EReal)
    (r : Fin 4096) (c : Fin 11008) : out x w s b (ix2 r c) = outAt x w s b r c := rfl

/-- The inclusion of the reals in the extended reals commutes with finite sums. -/
theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A common factor moves across a finite sum of products when every term is real:
    ∑ k, x k · (w k · s) = (∑ k, x k · w k) · s. -/
theorem sum_mul_scale {ι : Type*} [Fintype ι] (x w : ι → EReal) (s : EReal)
    (hx : ∀ k, ∃ r : ℝ, x k = r) (hw : ∀ k, ∃ r : ℝ, w k = r) (hs : ∃ r : ℝ, s = r) :
    ∑ k, x k * (w k * s) = (∑ k, x k * w k) * s := by
  choose xr hxr using hx
  choose wr hwr using hw
  obtain ⟨sr, rfl⟩ := hs
  simp only [hxr, hwr, ← EReal.coe_mul]
  rw [← coe_sum, ← coe_sum, ← EReal.coe_mul, Finset.sum_mul]
  exact congrArg _ (Finset.sum_congr rfl fun k _ => (mul_assoc _ _ _).symm)

end Cert.ScaledLinear

end
-- ==== Proof.ReferenceValue.lean ====
/-
  What the reference computes, read index by index, is the layer's function `ScaledLinear.out` of its arguments.

  The reference scales the weights first, w'[c, k] = w[c, k] · s[c, 0], transposes them, contracts x with the transpose
  over the shared axis, and adds the bias broadcast along the rows:
      ref[r, c] = ∑ k, x[r, k] · (w[c, k] · s[c, 0]) + b[c].
  Moving the scale out of the sum (`ScaledLinear.sum_mul_scale`) needs the entries of x, w and s to be real numbers;
  the bias is added on both sides and may be anything.
-/
import proofs.«164669_j29884382445885_2_alg».proof.Proof.Gen.ReferenceIdeal.Read
import proofs.«164669_j29884382445885_2_alg».proof.Proof.ScaledLinear

noncomputable section

namespace Cert.ReferenceIdeal.RefValue

open Cert.ReferenceIdeal Cert.ReferenceIdeal.Read Idealize.ShloMosaic Idealize.ShloMosaic.ValueIdx

/-- The reference's result array as a function of the four arguments, when x, w and s hold real numbers. -/
theorem ref_eq_out (x0 : S4096x4096.Idx → EReal) (x1 : S11008x4096.Idx → EReal) (x2 : S11008x1.Idx → EReal)
    (x3 : S11008.Idx → EReal)
    (hx : ∀ j, ∃ r : ℝ, x0 j = r) (hw : ∀ j, ∃ r : ℝ, x1 j = r) (hs : ∀ j, ∃ r : ℝ, x2 j = r) :
    val_main_v6 (F := Ideal) x0 x1 x2 x3 = Cert.ScaledLinear.out x0 x1 x2 x3 := by
  funext i
  obtain ⟨r, c, rfl⟩ : ∃ (r : Fin 4096) (c : Fin 11008), i = ix2 r c := ⟨i 0, i 1, eq_ix2 i⟩
  -- the operand indices the reference's layout operations compose, as row/column pairs
  have el : ∀ k : Fin 4096, lidx_main_v3 (ix2 r c) k = ix2 r k := fun k =>
    funext fun a => Fin.ext (by match a with | ⟨0, _⟩ => rfl | ⟨1, _⟩ => rfl)
  have ew : ∀ k : Fin 4096, idx_main_v2 (ridx_main_v3 (ix2 r c) k) = ix2 c k := fun k =>
    funext fun a => Fin.ext (by match a with | ⟨0, _⟩ => rfl | ⟨1, _⟩ => rfl)
  have es : ∀ k : Fin 4096, idx_main_v0 (ix2 c k) = ix2 c (0 : Fin 1) := fun k =>
    funext fun a => Fin.ext (by match a with | ⟨0, _⟩ => rfl | ⟨1, _⟩ => rfl)
  have eb : idx_main_v4 (idx_main_v5 (ix2 r c)) = ix1 c :=
    funext fun a => Fin.ext (by match a with | ⟨0, _⟩ => rfl)
  rw [Cert.ScaledLinear.out_ix2, val_main_v6_apply, val_main_v3_apply, val_main_v5_apply, val_main_v4_apply]
  simp only [val_main_v2_apply, el, ew, val_main_v1_apply, val_main_v0_apply, es, eb, Ideal.mulf_def, Ideal.addf_def]
  unfold Cert.ScaledLinear.outAt
  rw [Cert.ScaledLinear.sum_mul_scale (fun k => x0 (ix2 r k)) (fun k => x1 (ix2 c k)) (x2 (ix2 c (0 : Fin 1)))
    (fun k => hx _) (fun k => hw _) (hs _)]

end Cert.ReferenceIdeal.RefValue

end
-- ==== Proof.Tile.lean ====
/-
  One tile of the kernel's output, read at an index.

  At a grid point the body holds a [2048, 4096] block X of the (format-converted) activations, a [256, 4096] block W
  of the weights, and [1, 256] rows S, B of the scales and the biases. It contracts X with W over their SECOND axes into
  a zero accumulator, multiplies by S broadcast down the rows and adds B broadcast down the rows. So at row p and
  column q of the tile:

      tile[p, q] = (∑ k, X[p, k] · W[q, k]) · S[0, q] + B[0, q].

  The contraction is a sum over the one contracted axis; the operand indices of the product at output index (p, q) and
  contraction index k are (p, k) on the left and (q, k) on the right, since both operands contract their axis 1 and
  keep their axis 0.
-/
import proofs.«164669_j29884382445885_2_alg».proof.Proof.Gen.KernelIdeal.Skeleton
import proofs.«164669_j29884382445885_2_alg».proof.Proof.ScaledLinear
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The left operand's index keeps the output's row. -/
theorem lhs_row (j : S2048x256.Idx) (q : dot_S2048x4096_S256x4096_S2048x256_1_1_0_0_n_n.contr.Idx) : (dot_S2048x4096_S256x4096_S2048x256_1_1_0_0_n_n.lhsIdx j q 0).val = (j 0).val := by
  unfold DotDims.lhsIdx
  rw [dif_neg (show ¬(0 : Fin S2048x4096.rank) ∈ dot_S2048x4096_S256x4096_S2048x256_1_1_0_0_n_n.lhsBatch by decide),
    dif_pos (show (0 : Fin S2048x4096.rank) ∈ dot_S2048x4096_S256x4096_S2048x256_1_1_0_0_n_n.lhsNonContracting by decide)]
  rfl

/-- The left operand's contracted coordinate is the contraction index. -/
theorem lhs_contr (j : S2048x256.Idx) (q : dot_S2048x4096_S256x4096_S2048x256_1_1_0_0_n_n.contr.Idx) : (dot_S2048x4096_S256x4096_S2048x256_1_1_0_0_n_n.lhsIdx j q 1).val = (q ⟨0, by decide⟩).val :=
  dot_S2048x4096_S256x4096_S2048x256_1_1_0_0_n_n.lhsIdx_val_of_single rfl j q

/-- The right operand's index keeps the output's column, as ITS row. -/
theorem rhs_row (j : S2048x256.Idx) (q : dot_S2048x4096_S256x4096_S2048x256_1_1_0_0_n_n.contr.Idx) : (dot_S2048x4096_S256x4096_S2048x256_1_1_0_0_n_n.rhsIdx j q 0).val = (j 1).val := by
  unfold DotDims.rhsIdx
  rw [dif_neg (show ¬(0 : Fin S256x4096.rank) ∈ dot_S2048x4096_S256x4096_S2048x256_1_1_0_0_n_n.rhsBatch by decide),
    dif_pos (show (0 : Fin S256x4096.rank) ∈ dot_S2048x4096_S256x4096_S2048x256_1_1_0_0_n_n.rhsNonContracting by decide)]
  rfl

/-- The right operand's contracted coordinate is the contraction index. -/
theorem rhs_contr (j : S2048x256.Idx) (q : dot_S2048x4096_S256x4096_S2048x256_1_1_0_0_n_n.contr.Idx) : (dot_S2048x4096_S256x4096_S2048x256_1_1_0_0_n_n.rhsIdx j q 1).val = (q ⟨0, by decide⟩).val :=
  dot_S2048x4096_S256x4096_S2048x256_1_1_0_0_n_n.rhsIdx_val_of_single rfl j q

/-- The contraction into a zero accumulator, at row `p` and column `q`, is the sum over `k` of X[p, k] · W[q, k]. -/
theorem contraction_apply (X : FVec Ideal S2048x4096 .bf16) (W : FVec Ideal S256x4096 .bf16) (p : Fin 2048) (q : Fin 256) :
    matmul dot_S2048x4096_S256x4096_S2048x256_1_1_0_0_n_n none X W (constant (F := Ideal) S2048x256 .f32 0x00000000#32) (ix2 p q)
      = ∑ k : Fin 4096, X (ix2 p k) * W (ix2 q k) := by
  refine (Ideal.matmul_constant_zero_apply dot_S2048x4096_S256x4096_S2048x256_1_1_0_0_n_n none X W (ix2 p q)).trans ?_
  rw [← Equiv.sum_comp (contrEquiv1 dot_S2048x4096_S256x4096_S2048x256_1_1_0_0_n_n 4096 rfl rfl).symm]
  refine Finset.sum_congr rfl fun k _ => ?_
  have hk := contrEquiv1_symm_val dot_S2048x4096_S256x4096_S2048x256_1_1_0_0_n_n 4096 rfl rfl k
  have el : dot_S2048x4096_S256x4096_S2048x256_1_1_0_0_n_n.lhsIdx (ix2 p q) ((contrEquiv1 dot_S2048x4096_S256x4096_S2048x256_1_1_0_0_n_n 4096 rfl rfl).symm k) = ix2 p k := funext fun a => Fin.ext (by
    match a with
    | ⟨0, _⟩ => exact lhs_row _ _
    | ⟨1, _⟩ => exact (lhs_contr _ _).trans hk)
  have er : dot_S2048x4096_S256x4096_S2048x256_1_1_0_0_n_n.rhsIdx (ix2 p q) ((contrEquiv1 dot_S2048x4096_S256x4096_S2048x256_1_1_0_0_n_n 4096 rfl rfl).symm k) = ix2 q k := funext fun a => Fin.ext (by
    match a with
    | ⟨0, _⟩ => exact rhs_row _ _
    | ⟨1, _⟩ => exact (rhs_contr _ _).trans hk)
  rw [el, er]

/-- A [1, 256] row broadcast down 2048 rows, read at (p, q), is the row's entry q. -/
theorem row_broadcast_apply (v : FVec Ideal S1x256 .f32) (p : Fin 2048) (q : Fin 256) :
    broadcastTo S2048x256 v broadcasts_S1x256_S2048x256 (ix2 p q) = v (ix2 (0 : Fin 1) q) :=
  broadcastTo_apply v broadcasts_S1x256_S2048x256 (ix2 p q) (ix2 (0 : Fin 1) q) (fun a => by
    match a with
    | ⟨0, _⟩ => show 0 = if (1 : Nat) = 1 then 0 else _; rw [if_pos rfl]
    | ⟨1, _⟩ => show q.val = if (256 : Nat) = 1 then 0 else q.val; rw [if_neg (by decide)])

/-- THE TILE at row `p`, column `q`. -/
theorem tile_apply (X : Vec Ideal S2048x4096 .bf16) (W : Vec Ideal S256x4096 .bf16) (S B : Vec Ideal S1x256 .f32)
    (p : Fin 2048) (q : Fin 256) :
    k0_pay1 (F := Ideal) X W S B (ix2 p q)
      = (∑ k : Fin 4096, X (ix2 p k) * W (ix2 q k)) * S (ix2 (0 : Fin 1) q) + B (ix2 (0 : Fin 1) q) := by
  unfold k0_pay1
  simp only [shapeCast_self]
  rw [addf_apply, mulf_apply, contraction_apply, row_broadcast_apply, row_broadcast_apply]

/-- THE TILE IS A PIECE OF THE LAYER'S OUTPUT: if row `p` of the block X is row `r` of x, row `q` of the block W is row
    `c` of w, and entry `q` of the rows S, B is channel `c`'s scale and bias, then the tile at (p, q) is the layer's
    output at (r, c). -/
theorem tile_eq_outAt (x : (⟨2, ![4096, 4096]⟩ : Shape).Idx → EReal) (w : (⟨2, ![11008, 4096]⟩ : Shape).Idx → EReal)
    (s : (⟨2, ![11008, 1]⟩ : Shape).Idx → EReal) (b : (⟨1, ![11008]⟩ : Shape).Idx → EReal)
    (X : Vec Ideal S2048x4096 .bf16) (W : Vec Ideal S256x4096 .bf16) (S B : Vec Ideal S1x256 .f32)
    (p : Fin 2048) (q : Fin 256) (r : Fin 4096) (c : Fin 11008)
    (hX : ∀ k : Fin 4096, X (ix2 p k) = x (ix2 r k)) (hW : ∀ k : Fin 4096, W (ix2 q k) = w (ix2 c k))
    (hS : S (ix2 (0 : Fin 1) q) = s (ix2 c (0 : Fin 1))) (hB : B (ix2 (0 : Fin 1) q) = b (ix1 c)) :
    k0_pay1 (F := Ideal) X W S B (ix2 p q) = Cert.ScaledLinear.outAt x w s b r c := by
  rw [tile_apply, hS, hB]
  unfold Cert.ScaledLinear.outAt
  simp only [hX, hW]

end Cert.KernelIdeal.Tile

end
-- ==== Proof.Staged.lean ====
/-
  The four arrays the kernel's region finds staged, in terms of the argument arrays.

  Before the region the program converts the activations x and the weights w to a narrower float format — the identity
  on extended reals — and lays the scales [11008, 1] and the biases [11008] out as rows [1, 11008]. A re-laying keeps the
  row-major order of the entries, so entry (0, j) of a row is entry (j, 0) of the scales' column, resp. entry j of the
  bias vector.
-/
import proofs.«164669_j29884382445885_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Staged

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The staged activations are the argument x, entry by entry. -/
theorem acts_apply (c : Dev nD) (i : S4096x4096.Idx) :
    (V m c main_v0 : S4096x4096.Idx → EReal) i = (m ((c : Thread nD τ).loc main_arg0) : S4096x4096.Idx → EReal) i := by
  have e : @Eq (S4096x4096.Idx → EReal) (V m c main_v0)
      (truncf (F := Ideal) (s := S4096x4096) (φ := .f32) .bf16 (m ((c : Thread nD τ).loc main_arg0)) bitsLt_bf16_f32) := by
    dsimp only [V, hostOps0]; after_results
  rw [e]; rfl

/-- The staged weights are the argument w, entry by entry. -/
theorem weights_apply (c : Dev nD) (i : S11008x4096.Idx) :
    (V m c main_v1 : S11008x4096.Idx → EReal) i = (m ((c : Thread nD τ).loc main_arg1) : S11008x4096.Idx → EReal) i := by
  have e : @Eq (S11008x4096.Idx → EReal) (V m c main_v1)
      (truncf (F := Ideal) (s := S11008x4096) (φ := .f32) .bf16 (m ((c : Thread nD τ).loc main_arg1)) bitsLt_bf16_f32) := by
    dsimp only [V, hostOps0]; after_results
  rw [e]; rfl

/-- Entry (0, j) of the staged row of scales is the scale of channel j. -/
theorem scales_apply (c : Dev nD) (j : Fin 11008) :
    (V m c main_v2 : S1x11008.Idx → EReal) (ix2 (0 : Fin 1) j)
      = (m ((c : Thread nD τ).loc main_arg2) : S11008x1.Idx → EReal) (ix2 j (0 : Fin 1)) := by
  have e : (V m c main_v2 : S1x11008.Idx → EReal)
      = shapeCast S1x11008 (m ((c : Thread nD τ).loc main_arg2) : S11008x1.Idx → EReal) shapeCasts_S11008x1_S1x11008 := by
    dsimp only [V, hostOps0]; after_results; rfl
  rw [e]
  refine shapeCast_apply _ shapeCasts_S11008x1_S1x11008 (ix2 (0 : Fin 1) j) (ix2 j (0 : Fin 1)) ?_
  rw [Shape.rowMajor_val_two, Shape.rowMajor_val_two]
  show j.val * 1 + 0 = 0 * 11008 + j.val
  omega

/-- Entry (0, j) of the staged row of biases is the bias of channel j. -/
theorem biases_apply (c : Dev nD) (j : Fin 11008) :
    (V m c main_v3 : S1x11008.Idx → EReal) (ix2 (0 : Fin 1) j)
      = (m ((c : Thread nD τ).loc main_arg3) : S11008.Idx → EReal) (ix1 j) := by
  have e : (V m c main_v3 : S1x11008.Idx → EReal)
      = shapeCast S1x11008 (m ((c : Thread nD τ).loc main_arg3) : S11008.Idx → EReal) shapeCasts_S11008_S1x11008 := by
    dsimp only [V, hostOps0]; after_results; rfl
  rw [e]
  refine shapeCast_apply _ shapeCasts_S11008_S1x11008 (ix2 (0 : Fin 1) j) (ix1 j) ?_
  rw [Shape.rowMajor_val_one, Shape.rowMajor_val_two]
  show j.val = 0 * 11008 + j.val
  omega

end Cert.KernelIdeal.Staged

end
-- ==== Proof.Tiles.lean ====
/-
  From tiles to the whole output array.

  The grid has 2 × 43 points. At point (a, b) the kernel reads rows 2048a … 2048a + 2047 of the activations, rows
  256b … 256b + 255 of the weights and entries 256b … 256b + 255 of the scales' and biases' rows, and writes the tile
  of the output at rows 2048a …, columns 256b …. By `Tile.tile_eq_outAt` that tile is the layer's output restricted to
  those rows and columns; the 86 tiles are disjoint and fill the 4096 × 11008 array (row r lies in tile row r / 2048,
  column c in tile column c / 256), so after the last point the array is the layer's output everywhere.
-/
import proofs.«164669_j29884382445885_2_alg».proof.Proof.Gen.KernelIdeal.Value
import proofs.«164669_j29884382445885_2_alg».proof.Proof.ScaledLinear
import proofs.«164669_j29884382445885_2_alg».proof.Proof.Tile
import proofs.«164669_j29884382445885_2_alg».proof.Proof.Staged
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The layer's output of the four argument arrays on core `c`. -/
abbrev layer (c : Dev nD) : S4096x11008.Idx → EReal :=
  Cert.ScaledLinear.out (m ((c : Thread nD τ).loc main_arg0)) (m ((c : Thread nD τ).loc main_arg1)) (m ((c : Thread nD τ).loc main_arg2)) (m ((c : Thread nD τ).loc main_arg3))

/-- How the five windows move over the grid, decided once over its 86 points: the activations' block follows the
    output tile's row, the weights', scales' and biases' blocks follow its column, and the tile indices stay in
    2 × 43. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 1 ∧ win0_4.index t (1 : Fin 2) ≤ 42 :=
  (by decide +kernel : ∀ t : Fin grid0.N, _)

/-- Every tile of the 2 × 43 tiling is some point's. -/
theorem every_tile : ∀ (a : Fin 2) (b : Fin 43), ∃ t : Fin cfg0.N, win0_4.index t = ![a.val, b.val] :=
  (by decide +kernel : ∀ (a : Fin 2) (b : Fin 43), ∃ t : Fin grid0.N, win0_4.index t = ![a.val, b.val])

/-- WHAT POINT `t` WRITES BACK is tile `t` of the layer's output. -/
theorem flushed_eq (c : Dev nD) (t : Fin cfg0.N) :
    (dats m 0 c).flushed 4 t = ((cfg0.win 4).blk t).view.read (Elt Ideal) (layer m c) := by
  rw [Cert.KernelIdeal.Value.flushed4]
  unfold out0_4
  rw [View.canon_unit_zero origin]
  simp only [View.ld_unit_zero (S := S2048x4096) origin, View.ld_unit_zero (S := S256x4096) origin,
    View.ld_unit_zero (S := S1x256) origin]
  obtain ⟨e00, e01, e10, e11, e20, e21, e30, e31, b0, b1⟩ := block_indices t
  funext y
  obtain ⟨p, q, rfl⟩ : ∃ (p : Fin 2048) (q : Fin 256), y = ix2 p q := ⟨y 0, y 1, eq_ix2 y⟩
  have hr : win0_4.index t (0 : Fin 2) * 2048 + p.val < 4096 := by have := p.isLt; omega
  have hc : win0_4.index t (1 : Fin 2) * 256 + q.val < 11008 := by have := q.isLt; omega
  show k0_pay1 (F := Ideal) (iblk m c 0 t) (iblk m c 1 t) (iblk m c 2 t) (iblk m c 3 t) (ix2 p q)
      = layer m c (((cfg0.win 4).blk t).view.emb (ix2 p q))
  have hemb : ((cfg0.win 4).blk t).view.emb (ix2 p q)
      = ix2 (⟨win0_4.index t (0 : Fin 2) * 2048 + p.val, hr⟩ : Fin 4096) (⟨win0_4.index t (1 : Fin 2) * 256 + q.val, hc⟩ : Fin 11008) := by
    funext a; apply Fin.ext
    match a with
    | ⟨0, _⟩ => show win0_4.index t (0 : Fin 2) * 2048 + 1 * p.val = win0_4.index t (0 : Fin 2) * 2048 + p.val; omega
    | ⟨1, _⟩ => show win0_4.index t (1 : Fin 2) * 256 + 1 * q.val = win0_4.index t (1 : Fin 2) * 256 + q.val; omega
  rw [hemb]
  show _ = Cert.ScaledLinear.outAt (m ((c : Thread nD τ).loc main_arg0)) (m ((c : Thread nD τ).loc main_arg1)) (m ((c : Thread nD τ).loc main_arg2)) (m ((c : Thread nD τ).loc main_arg3))
    (⟨win0_4.index t (0 : Fin 2) * 2048 + p.val, hr⟩ : Fin 4096) (⟨win0_4.index t (1 : Fin 2) * 256 + q.val, hc⟩ : Fin 11008)
  refine Tile.tile_eq_outAt (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) p q
    (⟨win0_4.index t (0 : Fin 2) * 2048 + p.val, hr⟩ : Fin 4096) (⟨win0_4.index t (1 : Fin 2) * 256 + q.val, hc⟩ : Fin 11008) ?_ ?_ ?_ ?_
  · -- row p of the activations' block is row 2048a + p of the activations
    intro k
    show V m c main_v0 (((cfg0.win 0).blk t).view.emb (ix2 p k)) = _
    refine (Staged.acts_apply m c _).trans (congrArg _ ?_)
    funext a; apply Fin.ext
    match a with
    | ⟨0, _⟩ => show win0_0.index t (0 : Fin 2) * 2048 + 1 * p.val = win0_4.index t (0 : Fin 2) * 2048 + p.val; omega
    | ⟨1, _⟩ => show win0_0.index t (1 : Fin 2) * 4096 + 1 * k.val = k.val; omega
  · -- row q of the weights' block is row 256b + q of the weights
    intro k
    show V m c main_v1 (((cfg0.win 1).blk t).view.emb (ix2 q k)) = _
    refine (Staged.weights_apply m c _).trans (congrArg _ ?_)
    funext a; apply Fin.ext
    match a with
    | ⟨0, _⟩ => show win0_1.index t (0 : Fin 2) * 256 + 1 * q.val = win0_4.index t (1 : Fin 2) * 256 + q.val; omega
    | ⟨1, _⟩ => show win0_1.index t (1 : Fin 2) * 4096 + 1 * k.val = k.val; omega
  · -- entry q of the scales' block is the scale of channel 256b + q
    show V m c main_v2 (((cfg0.win 2).blk t).view.emb (ix2 (0 : Fin 1) q)) = _
    have hs : ((cfg0.win 2).blk t).view.emb (ix2 (0 : Fin 1) q)
        = ix2 (0 : Fin 1) (⟨win0_4.index t (1 : Fin 2) * 256 + q.val, hc⟩ : Fin 11008) := by
      funext a; apply Fin.ext
      match a with
      | ⟨0, _⟩ => show win0_2.index t (0 : Fin 2) * 1 + 1 * 0 = 0; omega
      | ⟨1, _⟩ => show win0_2.index t (1 : Fin 2) * 256 + 1 * q.val = win0_4.index t (1 : Fin 2) * 256 + q.val; omega
    rw [hs]
    exact Staged.scales_apply m c _
  · -- entry q of the biases' block is the bias of channel 256b + q
    show V m c main_v3 (((cfg0.win 3).blk t).view.emb (ix2 (0 : Fin 1) q)) = _
    have hb : ((cfg0.win 3).blk t).view.emb (ix2 (0 : Fin 1) q)
        = ix2 (0 : Fin 1) (⟨win0_4.index t (1 : Fin 2) * 256 + q.val, hc⟩ : Fin 11008) := by
      funext a; apply Fin.ext
      match a with
      | ⟨0, _⟩ => show win0_3.index t (0 : Fin 2) * 1 + 1 * 0 = 0; omega
      | ⟨1, _⟩ => show win0_3.index t (1 : Fin 2) * 256 + 1 * q.val = win0_4.index t (1 : Fin 2) * 256 + q.val; omega
    rw [hb]
    exact Staged.biases_apply m c _

/-- An index of the output is in point `t`'s tile iff each coordinate is in the tile's range on its axis. -/
theorem mem_tile (t : Fin cfg0.N) (i : S4096x11008.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v4).slice (win0_4.rect t)).set ↔ _
  rw [View.set_slice_whole, Rect.mem_set_unit]
  exact Iff.rfl

/-- The tiles fill the array: the index (r, c) lies in the tile of the point with tile indices (r / 2048, c / 256). -/
theorem tiles_cover (i : S4096x11008.Idx) :
    ∃ t : Fin cfg0.N, (cfg0.win 4).flush t = true ∧ i ∈ ((cfg0.win 4).blk t).view.set := by
  have hi0 : (i 0).val < 4096 := (i 0).isLt
  have hi1 : (i 1).val < 11008 := (i 1).isLt
  obtain ⟨t, ht⟩ := every_tile ⟨(i 0).val / 2048, by omega⟩ ⟨(i 1).val / 256, by omega⟩
  have q0 : win0_4.index t (0 : Fin 2) = (i 0).val / 2048 := congrFun ht 0
  have q1 : win0_4.index t (1 : Fin 2) = (i 1).val / 256 := congrFun ht 1
  refine ⟨t, flush0_4 t, ?_⟩
  rw [mem_tile]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 256 ≤ (i 1).val ∧ (i 1).val < win0_4.index t (1 : Fin 2) * 256 + 256; omega

/-- THE OUTPUT ARRAY after the last point is the layer's output of the argument arrays. -/
theorem final (c : Dev nD) : (dats m 0 c).arrAt 4 cfg0.N = layer m c :=
  (dats m 0 c).arrAt_eq_of_cover 4 (layer m c) (fun t _ => flushed_eq m c t) tiles_cover

/-- The kernel's run, read: every weakly fair execution terminates with the output array at the layer's output of the
    arguments and the arguments unchanged. -/
theorem run : θ_run defs (onTc (τ := τ) (main (F := Ideal))) ⟨m, fun _ => 0, ρ⟩ fun r => ∀ c : Dev nD,
      r.2.mem ((c : Thread nD τ).loc main_v4) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Tiles

end
-- ==== Proof.Finite.lean ====
/-
  From the precondition to real entries.

  The precondition is the conjunction, over the four argument arrays, of "every entry has absolute value below +∞".
  On the extended reals |x| < +∞ excludes exactly x = +∞ and x = -∞ (|-∞| = +∞), so an entry satisfying it is a real
  number. Of the four conjuncts the first three — the activations, the weights and the scales — are the ones the layer's
  law needs.
-/
import proofs.«164669_j29884382445885_2_alg».proof.Pre_finite_inputs
import proofs.«164669_j29884382445885_2_alg».proof.Proof.Gen.Pre_finite_inputs
import Idealize.ShloMosaic.Lib.ReduceAll
import Idealize.ShloMosaic.Lib.ValueIdx
import Idealize.ShloMosaic.Lib.Affine
import Idealize.ShloMosaic.PureOps.Ideal.Laws

noncomputable section

namespace Cert.Pre_finite_inputs.Finite

open Cert.Pre_finite_inputs Cert.Pre_finite_inputs.Facts Idealize.ShloMosaic

/-- The shape with no axes has one index. -/
instance : Subsingleton S_.Idx := ⟨fun a b => funext fun d => d.elim0⟩

/-- An extended real whose absolute value max(x, -x) is strictly below +∞ is a real number. -/
theorem real_of_abs_lt (x : EReal)
    (h : Ideal.cmp .olt (max x (-x)) (Ideal.ofBits .f32 0x7F800000#32) = 1#1) : ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition the activations, the weights and the scales hold real numbers. -/
theorem reals_of_pre (x0 : FVec Ideal S4096x4096 .f32) (x1 : FVec Ideal S11008x4096 .f32) (x2 : FVec Ideal S11008x1 .f32)
    (x3 : FVec Ideal S11008 .f32) (h : fn (F := Ideal) x0 x1 x2 x3 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [fn, fn_part1, andi] at h0
  obtain ⟨⟨⟨ha, hb⟩, hc⟩, -⟩ : ((_ = 1#1 ∧ _ = 1#1) ∧ _ = 1#1) ∧ _ = 1#1 := by
    simpa only [IntOp.andi_eq_one] using h0
  refine ⟨fun i => ?_, fun i => ?_, fun i => ?_⟩
  · exact real_of_abs_lt (x0 i) (Host.reduce_andi_all _ _ _ _ ValueIdx.ix0 ha i)
  · exact real_of_abs_lt (x1 i) (Host.reduce_andi_all _ _ _ _ ValueIdx.ix0 hb i)
  · exact real_of_abs_lt (x2 i) (Host.reduce_andi_all _ _ _ _ ValueIdx.ix0 hc i)

end Cert.Pre_finite_inputs.Finite

end
-- ==== Proof.lean ====
/-
  A quantised linear layer computed tile by tile equals the plain formula, over the extended reals.

  Arguments: activations x : [4096, 4096], integer-valued weights w : [11008, 4096], one scale per output channel
  s : [11008, 1], a bias b : [11008]. The kernel walks a 2 × 43 grid; at each point it contracts a [2048, 4096] block of
  x with a [256, 4096] block of w over their second axes, multiplies the [2048, 256] result by the channels' scales and
  adds their biases, and writes that tile of the output:
      kernel[r, c] = (∑ k, x[r, k] · w[c, k]) · s[c, 0] + b[c].
  The reference scales the weights first and then contracts:
      ref[r, c] = ∑ k, x[r, k] · (w[c, k] · s[c, 0]) + b[c].
  A change of float format is the identity on extended reals, and the order and tiling of a sum do not matter there;
  what joins the two formulas is moving the scale across the sum, which holds for REAL entries and fails at infinities.
  So the precondition — every entry finite — is used, for x, w and s.

  The parts: `ScaledLinear` (the layer as one function, and the law), `ReferenceValue` (the reference computes it),
  `Tile` (one tile at an index), `Staged` (the arrays the region finds, in terms of the arguments), `Tiles` (the tiles
  fill the output array), `Finite` (the precondition gives real entries). The three programs' termination and unchanged
  arguments come from the generated modules this file imports; the idealised kernel differs from the kernel by no
  rewrite, so that conjunct is trivial.
-/
import proofs.«164669_j29884382445885_2_alg».proof.Defs
import proofs.«164669_j29884382445885_2_alg».proof.Proof.Gen.Kernel
import proofs.«164669_j29884382445885_2_alg».proof.Proof.Gen.Kernel.Skeleton
import proofs.«164669_j29884382445885_2_alg».proof.Proof.Gen.Kernel.Launch
import proofs.«164669_j29884382445885_2_alg».proof.Proof.Gen.Kernel.Points
import proofs.«164669_j29884382445885_2_alg».proof.Proof.Gen.Kernel.Frame
import proofs.«164669_j29884382445885_2_alg».proof.Proof.Gen.KernelIdeal
import proofs.«164669_j29884382445885_2_alg».proof.Proof.Gen.KernelIdeal.Skeleton
import proofs.«164669_j29884382445885_2_alg».proof.Proof.Gen.KernelIdeal.Launch
import proofs.«164669_j29884382445885_2_alg».proof.Proof.Gen.KernelIdeal.Points
import proofs.«164669_j29884382445885_2_alg».proof.Proof.Gen.KernelIdeal.Frame
import proofs.«164669_j29884382445885_2_alg».proof.Proof.Gen.ReferenceIdeal
import proofs.«164669_j29884382445885_2_alg».proof.Proof.Gen.Pre_finite_inputs
import proofs.«164669_j29884382445885_2_alg».proof.Proof.Gen.KernelIdeal.Value
import proofs.«164669_j29884382445885_2_alg».proof.Proof.Gen.ReferenceIdeal.Run
import proofs.«164669_j29884382445885_2_alg».proof.Proof.Gen.ReferenceIdeal.Read
import proofs.«164669_j29884382445885_2_alg».proof.Proof.ScaledLinear
import proofs.«164669_j29884382445885_2_alg».proof.Proof.ReferenceValue
import proofs.«164669_j29884382445885_2_alg».proof.Proof.Tiles
import proofs.«164669_j29884382445885_2_alg».proof.Proof.Finite
import Idealize.ShloMosaic.Adequacy
import Idealize.ShloMosaic.Init

noncomputable section

namespace Cert.Proof

open Idealize.ShloMosaic Idealize.SL.Sem

/-- The kernel terminates without a fault and leaves its arguments as they were. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealised kernel is the kernel's own text read over the extended reals: no rewrite to account for. -/
theorem preserves : Cert.preserves_Kernel_KernelIdeal := trivial

/-- From memories agreeing on the four arguments, with every entry finite, both programs end with the layer's output
    `ScaledLinear.out` of the arguments: the kernel tile by tile (`Tiles.run`), the reference by its run read index by
    index (`RefValue.ref_eq_out`), the entries of x, w and s real by the precondition (`Finite.reals_of_pre`). -/
theorem algebraic : Cert.algebraic_KernelIdeal_ReferenceIdeal := by
  intro m ρ m' ρ' hpre hagree
  refine ⟨fun c => Cert.KernelIdeal.Tiles.layer m c, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw, hs⟩ := Cert.Pre_finite_inputs.Finite.reals_of_pre _ _ _ _ (hpre c)
  rw [Cert.ReferenceIdeal.Read.val_main_v6_eq, (hagree c).1, (hagree c).2.1, (hagree c).2.2.1, (hagree c).2.2.2]
  exact Cert.ReferenceIdeal.RefValue.ref_eq_out _ _ _ _ hx hw hs

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
